-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x8192x1024 .f32) (main_arg1 : FVec F S8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x8192x1024 : Shape := ⟨3, ![4, 8192, 1024]⟩
abbrev S8192x1024 : Shape := ⟨2, ![8192, 1024]⟩
abbrev S4x832x1024 : Shape := ⟨3, ![4, 832, 1024]⟩
abbrev S832x1024 : Shape := ⟨2, ![832, 1024]⟩
abbrev S4x832 : Shape := ⟨2, ![4, 832]⟩
abbrev S4x832x1 : Shape := ⟨3, ![4, 832, 1]⟩
abbrev S1x832x1024 : Shape := ⟨3, ![1, 832, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S4x832x1024, .f32⟩
  | .local _ .vmem, ⟨1, _⟩ => ⟨S4x832x1024, .f32⟩
  | .local _ .vmem, ⟨2, _⟩ => ⟨S832x1024, .f32⟩
  | .local _ .vmem, ⟨3, _⟩ => ⟨S832x1024, .f32⟩
  | .local _ .vmem, ⟨4, _⟩ => ⟨S4x832x1024, .f32⟩
  | .local _ .vmem, ⟨5, _⟩ => ⟨S4x832x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x832x1024_S4x832x1024_0_0_0 : ∀ a, (![0, 0, 0] : Fin 3 → Nat) a + S4x832x1024.size a ≤ S4x832x1024.size a
  h_S4x832x1024 : 0 < S4x832x1024.numel
  reduces_S4x832x1024_S4x832 : S4x832x1024.Reduces [2] S4x832
  shapeCasts_S4x832_S4x832x1 : S4x832.ShapeCasts S4x832x1
  broadcasts_S4x832x1_S4x832x1024 : S4x832x1.Broadcasts S4x832x1024
  inb_S832x1024_S832x1024_0_0 : ∀ a, (![0, 0] : Fin 2 → Nat) a + S832x1024.size a ≤ S832x1024.size a
  h_S832x1024 : 0 < S832x1024.numel
  shapeCasts_S832x1024_S1x832x1024 : S832x1024.ShapeCasts S1x832x1024
  broadcasts_S1x832x1024_S4x832x1024 : S1x832x1024.Broadcasts S4x832x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x832x1024.size a < S4x8192x1024.size a
  hwx0_0 : ∀ i : grid0.Coords, EltTy.bits .f32 = 32 ∨ (Rect.unit (s := S4x8192x1024) (fun a => cc0_transform_0 i a * S4x832x1024.size a) (fun a => (Pipeline.Clip.of (cc0_transform_0 i a) (S4x832x1024.size a) (S4x8192x1024.size a)).extent (S4x832x1024.size a)) fun a => Pipeline.Clip.inb (Pipeline.Clip.ok_of (hstart0_0 i a))).WholeWords (EltTy.packing .f32)
  hwxs0_0 : ∀ i : grid0.Coords, EltTy.bits .f32 = 32 ∨ (Rect.unit (s := S4x832x1024) (fun _ => 0) (fun a => (Pipeline.Clip.of (cc0_transform_0 i a) (S4x832x1024.size a) (S4x8192x1024.size a)).extent (S4x832x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S832x1024.size a < S8192x1024.size a
  hwx0_1 : ∀ i : grid0.Coords, EltTy.bits .f32 = 32 ∨ (Rect.unit (s := S8192x1024) (fun a => cc0_transform_1 i a * S832x1024.size a) (fun a => (Pipeline.Clip.of (cc0_transform_1 i a) (S832x1024.size a) (S8192x1024.size a)).extent (S832x1024.size a)) fun a => Pipeline.Clip.inb (Pipeline.Clip.ok_of (hstart0_1 i a))).WholeWords (EltTy.packing .f32)
  hwxs0_1 : ∀ i : grid0.Coords, EltTy.bits .f32 = 32 ∨ (Rect.unit (s := S832x1024) (fun _ => 0) (fun a => (Pipeline.Clip.of (cc0_transform_1 i a) (S832x1024.size a) (S8192x1024.size a)).extent (S832x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4x832x1024.size a < S4x8192x1024.size a
  hwx0_2 : ∀ i : grid0.Coords, EltTy.bits .f32 = 32 ∨ (Rect.unit (s := S4x8192x1024) (fun a => cc0_transform_2 i a * S4x832x1024.size a) (fun a => (Pipeline.Clip.of (cc0_transform_2 i a) (S4x832x1024.size a) (S4x8192x1024.size a)).extent (S4x832x1024.size a)) fun a => Pipeline.Clip.inb (Pipeline.Clip.ok_of (hstart0_2 i a))).WholeWords (EltTy.packing .f32)
  hwxs0_2 : ∀ i : grid0.Coords, EltTy.bits .f32 = 32 ∨ (Rect.unit (s := S4x832x1024) (fun _ => 0) (fun a => (Pipeline.Clip.of (cc0_transform_2 i a) (S4x832x1024.size a) (S4x8192x1024.size a)).extent (S4x832x1024.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S4x832x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S832x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S4x832x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩
abbrev S4x8192 : Shape := ⟨2, ![4, 8192]⟩
abbrev S4x8192x1 : Shape := ⟨3, ![4, 8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1_S1x1x1_2 : S1.BroadcastsInDim S1x1x1 (![2] : Fin 1 → Fin S1x1x1.rank)
  bcast_S1x1x1_S1x8192x1_0_1_2 : S1x1x1.BroadcastsInDim S1x8192x1 (![0, 1, 2] : Fin 3 → Fin S1x8192x1.rank)
  reducesTo_S1x8192x1_S1x8192_d2 : S1x8192x1.ReducesTo [2] S1x8192
  h_S_ : 0 < S_.numel
  bcast_S1x8192_S1x8192x1024_0_1 : S1x8192.BroadcastsInDim S1x8192x1024 (![0, 1] : Fin 2 → Fin S1x8192x1024.rank)
  bcast_S_S1x8192x1024 : S_.BroadcastsInDim S1x8192x1024 (![] : Fin 0 → Fin S1x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1x8192x1024_S4x8192x1024_0_1_2 : S1x8192x1024.BroadcastsInDim S4x8192x1024 (![0, 1, 2] : Fin 3 → Fin S4x8192x1024.rank)
  gather_S8192x1024_S1x8192x1_S1x8192x1024_2_0_n_n_0_2_11024_wf : GatherDims.WF S8192x1024 S1x8192x1 S1x8192x1024 [2] [0] [] [0] [] 2 ![1, 1024]

variable [Facts₀]

def gather_S8192x1024_S1x8192x1_S1x8192x1024_2_0_n_n_0_2_11024 : GatherDims S8192x1024 S1x8192x1 S1x8192x1024 where
  offsetDims := [2]
  collapsedSliceDims := [0]
  operandBatchingDims := []
  startIndicesBatchingDims := []
  startIndexMap := [0]
  indexVectorDim := 2
  sliceSizes := ![1, 1024]
  wf := gather_S8192x1024_S1x8192x1_S1x8192x1024_2_0_n_n_0_2_11024_wf

class Facts : Prop extends Facts₀ where

variable [Facts]
-- ==== Proof.KerBodyB.lean ====
/-
  One grid point of the kernel, on whole staging buffers.

  The body loads the whole block of the first operand (a [4, 832, 1024] stack of rows) and the whole block of the
  second (the [832, 1024] positional rows), loads the result's buffer without using what it read, and stores into
  the whole of the result's buffer one value computed from the two loads: each row normalised (its mean removed,
  scaled by the reciprocal square root of its variance plus ε) with the positional row added. Nothing else is
  touched, so: if the two input buffers hold x0 and x1 and the result's buffer holds anything, the body ends with
  the inputs as they were and the result's buffer holding that value of x0 and x1. This holds for any
  interpretation of the float operations, since it only follows the loads and the store.
-/
import proofs.«149477_g14345190768845_cont_week2b_405_12_alg».proof.Proof.Gen.Kernel.Frame
import proofs.«149477_g14345190768845_cont_week2b_405_12_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two rectangles the body reads and writes through: each is its buffer, whole. -/
abbrev wholeRows : Rect S4x832x1024 := Rect.unit (s := S4x832x1024) ![0, 0, 0] S4x832x1024.size inb_S4x832x1024_S4x832x1024_0_0_0
abbrev wholePos : Rect S832x1024 := Rect.unit (s := S832x1024) ![0, 0] S832x1024.size inb_S832x1024_S832x1024_0_0

theorem zero3 : (![0, 0, 0] : Fin 3 → Nat) = fun _ => 0 := funext fun a => by fin_cases a <;> rfl
theorem zero2 : (![0, 0] : Fin 2 → Nat) = fun _ => 0 := funext fun a => by fin_cases a <;> rfl

/-- The one store is through the whole buffer, so it covers every entry of it. -/
theorem store_covers (p0 : Vec F S4x832x1024 .f32) (y : S4x832x1024.Idx) :
    ∃ pc ∈ ([⟨wholeRows, p0⟩] : List (View.Piece (Elt F) S4x832x1024 .f32)), y ∈ pc.1.set :=
  View.cover_of_tiled [⟨wholeRows, p0⟩] S4x832x1024.size (by rfl) y

/-- What a buffer holds after a single store through the whole of it, of a value computed from whole-buffer loads:
    that value of the buffers' contents. -/
theorem stored_eq (x0 : Vec F S4x832x1024 .f32) (x1 : Vec F S832x1024 .f32) :
    View.canon [(⟨wholeRows, k0_pay1 (View.ld x0 wholeRows) (View.ld x1 wholePos)⟩ : View.Piece (Elt F) S4x832x1024 .f32)]
      = k0_pay1 x0 x1 := by
  rw [View.canon_unit_zero zero3, View.ld_unit_zero (S := S4x832x1024) zero3, View.ld_unit_zero (S := S832x1024) zero2]

set_option maxHeartbeats 1000000 in
/-- The body's triple. -/
theorem run (c : Dev nD) (i : grid0.Coords)
    (arg1 : Memref sig .tc .vmem S4x832x1024 .f32) (harg1 : arg1.IsWhole)
    (arg2 : Memref sig .tc .vmem S832x1024 .f32) (harg2 : arg2.IsWhole)
    (arg3 : Memref sig .tc .vmem S4x832x1024 .f32) (harg3 : arg3.IsWhole)
    (x0 : Vec F S4x832x1024 .f32) (x1 : Vec F S832x1024 .f32) (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__ln_add_block i arg1 harg1 arg2 harg2 arg3 harg3) K := by
  simp only [cc0__ln_add_block_eq_skeleton]; unfold cc0__ln_add_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (store_covers _)).trans (stored_eq _ _)

end Cert.Kernel.Body

end
-- ==== Proof.KerFrameB.lean ====
/-
  The kernel runs to the end, faults nowhere, and leaves its two argument arrays as they were.

  The grid has ten points over a row axis of 8192 in blocks of 832, so the last block overhangs the arrays by 128
  rows: its fetch first overwrites the staging buffer with words nothing names, then lands the 704 rows that exist.
  A row sum at the word level is an unspecified function of the whole loaded block, so what the body computes from
  such a buffer cannot be named; the frame does not need it. Here every window is treated as holding SOME contents
  before the body and SOME contents after it: the body only loads from its three buffers and stores into the third,
  so it runs from any contents; the argument arrays are never written back to (they are inputs), so they end as
  they began; the result array is overwritten block by block with whatever the body left.
-/
import proofs.«149477_g14345190768845_cont_week2b_405_12_alg».proof.Proof.KerBodyB

set_option maxRecDepth 16384

noncomputable section

namespace Cert.Kernel.AnyContents

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is held at contents nothing names. -/
def anyWindow : Fin 3 → Bool := fun _ => true

/-- The proof data: the arrays as the region finds them; after the body each staging buffer at contents nothing
    reads; the region's own invariant; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The body at a point, from any contents of its three buffers to some contents of them. -/
theorem sound_body (c : Dev nD) (t : Fin cfg0.N) :
    iprop((dats m 0 c).Φ t.castSucc ∗ (dats m 0 c).owesAt () t.castSucc
        ∗ (∃ X, owns (c : Thread nD τ) (st0_0 t) fullShare X)
        ∗ (∃ X, owns (c : Thread nD τ) (st0_1 t) fullShare X)
        ∗ (∃ X, owns (c : Thread nD τ) (st0_2 t) fullShare X))
      ⊢ wp frame (wpE (defs₀ (F := F)) Variants.none c none) Set.univ (bodyAt0 t) (fun _ =>
          iprop((dats m 0 c).Φ t.succ ∗ (dats m 0 c).owesAt () t.succ
            ∗ (∃ X, owns (c : Thread nD τ) (st0_0 t) fullShare X)
            ∗ (∃ X, owns (c : Thread nD τ) (st0_1 t) fullShare X)
            ∗ (∃ X, owns (c : Thread nD τ) (st0_2 t) fullShare X))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (Body.run (F := F) c (grid0.coords t) _ _ _ _ _ _ X0 X1 Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The pipeline's obligation on the body, every window held at unnamed contents. -/
theorem body_obligation (c : Dev nD) : BodyObligation (dats (F := F) m 0 c) (defs₀ (F := F)) Variants.none () Set.univ anyWindow := fun t => by
  rw [bigSep_W0, bigSep_W0]
  exact sound_body m c t

-- the launch theorem's implicit arguments are found by unifying its conclusion with this one, which takes unfolding
-- plain definitions in a metavariable's type
set_option backward.isDefEq.respectTransparency.types false in
/-- Every weakly fair execution terminates without a fault; each input array ends as it was found. -/
theorem run_main : θ_run defs (onTc (τ := τ) (main (F := F))) (s₀ m ρ)
    (Pipeline.RDat.FramePost (cfgs 0) (fun c => (dats m 0 c).toRForget anyWindow) (V m)) :=
  Pipeline.RDat.θ_run_frame cfgs (0 : Fin 1) launch0 defs₀ Variants.none (fun c => (dats m 0 c).toRForget anyWindow) m ρ main
    (hbody := fun c => (body_obligation m c).toRForget) (hshare := fun c => ((dats m 0 c).toRForget anyWindow).share_full fun _ => rfl)
    (howed := fun _ _ => rfl) (V := V m) (hmain := hmain m Variants.none) (hA := A_eq m) (hΦ := fun _ _ => rfl)

/-- The frame: both argument arrays unchanged (an input window's array is never written back to). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget anyWindow).ArrAt_in 0 rfl _) _) ((h c).1 0)).trans ((A_eq m c 0).trans (V_main_arg0 m c)),
     (Eq.mp (congrFun (((dats m 0 c).toRForget anyWindow).ArrAt_in 1 rfl _) _) ((h c).1 1)).trans ((A_eq m c 1).trans (V_main_arg1 m c))⟩)
    (run_main m ρ)

end Cert.Kernel.AnyContents

end
-- ==== Proof.KerBodyI.lean ====
/-
  One grid point of the kernel, on whole staging buffers.

  The body loads the whole block of the first operand (a [4, 832, 1024] stack of rows) and the whole block of the
  second (the [832, 1024] positional rows), loads the result's buffer without using what it read, and stores into
  the whole of the result's buffer one value computed from the two loads: each row normalised (its mean removed,
  scaled by the reciprocal square root of its variance plus ε) with the positional row added. Nothing else is
  touched, so: if the two input buffers hold x0 and x1 and the result's buffer holds anything, the body ends with
  the inputs as they were and the result's buffer holding that value of x0 and x1. This holds for any
  interpretation of the float operations, since it only follows the loads and the store.
-/
import proofs.«149477_g14345190768845_cont_week2b_405_12_alg».proof.Proof.Gen.KernelIdeal.Frame
import proofs.«149477_g14345190768845_cont_week2b_405_12_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two rectangles the body reads and writes through: each is its buffer, whole. -/
abbrev wholeRows : Rect S4x832x1024 := Rect.unit (s := S4x832x1024) ![0, 0, 0] S4x832x1024.size inb_S4x832x1024_S4x832x1024_0_0_0
abbrev wholePos : Rect S832x1024 := Rect.unit (s := S832x1024) ![0, 0] S832x1024.size inb_S832x1024_S832x1024_0_0

theorem zero3 : (![0, 0, 0] : Fin 3 → Nat) = fun _ => 0 := funext fun a => by fin_cases a <;> rfl
theorem zero2 : (![0, 0] : Fin 2 → Nat) = fun _ => 0 := funext fun a => by fin_cases a <;> rfl

/-- The one store is through the whole buffer, so it covers every entry of it. -/
theorem store_covers (p0 : Vec F S4x832x1024 .f32) (y : S4x832x1024.Idx) :
    ∃ pc ∈ ([⟨wholeRows, p0⟩] : List (View.Piece (Elt F) S4x832x1024 .f32)), y ∈ pc.1.set :=
  View.cover_of_tiled [⟨wholeRows, p0⟩] S4x832x1024.size (by rfl) y

/-- What a buffer holds after a single store through the whole of it, of a value computed from whole-buffer loads:
    that value of the buffers' contents. -/
theorem stored_eq (x0 : Vec F S4x832x1024 .f32) (x1 : Vec F S832x1024 .f32) :
    View.canon [(⟨wholeRows, k0_pay1 (View.ld x0 wholeRows) (View.ld x1 wholePos)⟩ : View.Piece (Elt F) S4x832x1024 .f32)]
      = k0_pay1 x0 x1 := by
  rw [View.canon_unit_zero zero3, View.ld_unit_zero (S := S4x832x1024) zero3, View.ld_unit_zero (S := S832x1024) zero2]

set_option maxHeartbeats 1000000 in
/-- The body's triple. -/
theorem run (c : Dev nD) (i : grid0.Coords)
    (arg1 : Memref sig .tc .vmem S4x832x1024 .f32) (harg1 : arg1.IsWhole)
    (arg2 : Memref sig .tc .vmem S832x1024 .f32) (harg2 : arg2.IsWhole)
    (arg3 : Memref sig .tc .vmem S4x832x1024 .f32) (harg3 : arg3.IsWhole)
    (x0 : Vec F S4x832x1024 .f32) (x1 : Vec F S832x1024 .f32) (E : Set ℕ) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__ln_add_block i arg1 harg1 arg2 harg2 arg3 harg3) K := by
  simp only [cc0__ln_add_block_eq_skeleton]; unfold cc0__ln_add_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (store_covers _)).trans (stored_eq _ _)

end Cert.KernelIdeal.Body

end
-- ==== Proof.RowNorm.lean ====
/-
  Row normalisation with a positional row added, as one function of the two argument arrays.

  For x : [4, 8192, 1024] and p : [8192, 1024], at the entry (b, s, k):
      mean  = (Σ_j x[b,s,j]) / 1024
      c[j]  = x[b,s,j] - mean
      var   = (Σ_j c[j]·c[j]) / 1024
      y     = var + ε                       (ε the single-precision word 0x3727C5AC, about 1e-5)
  and the result is   c[k] · y^(-1/2) + p[s,k]   in one spelling,   c[k] / √y + p[s,k]   in the other.

  On the extended reals the two spellings need not agree (at y ≤ 0 or y = -∞ they differ), but here y is
  always positive: a product a·a is ≥ 0 for EVERY extended real a (the infinities included), so a sum of such
  products is ≥ 0, so is its quotient by 1024, and adding the positive real ε makes it > 0. For 0 < y the
  reciprocal square root is (√y)⁻¹ when y is real and 0 when y = +∞, and dividing by √y is multiplying by the
  same number; hence the two spellings are one function, with no assumption that the entries are finite.
-/
import Idealize.ShloMosaic.PureOps.Ideal
import Idealize.ShloMosaic.Lib.ValueIdx

noncomputable section

namespace Cert.RowNorm

open Idealize.ShloMosaic Idealize.ShloMosaic.ValueIdx
open scoped BigOperators

/-- The array shapes. -/
abbrev SX : Shape := ⟨3, ![4, 8192, 1024]⟩
abbrev SP : Shape := ⟨2, ![8192, 1024]⟩

/-- The row length as the programs spell it (the word of 1024.0), and ε (the word of 9.99999974e-6). -/
def len : EReal := Ideal.ofBits .f32 0x44800000#32
def eps : EReal := Ideal.ofBits .f32 0x3727C5AC#32

theorem len_eq : len = ((1024 : ℝ) : EReal) := by
  unfold len; simp [Ideal.ofBits, Ideal.ieee, -EReal.coe_mul]; norm_num

theorem eps_pos : 0 < eps := by
  unfold eps; simp [Ideal.ofBits, Ideal.ieee, -EReal.coe_mul]

/-- A product of an extended real with itself is never negative. -/
theorem self_mul_nonneg (a : EReal) : 0 ≤ a * a := by
  induction a using EReal.rec with
  | bot => rw [EReal.bot_mul_bot]; exact le_top
  | coe r => rw [← EReal.coe_mul]; exact EReal.coe_nonneg.mpr (mul_self_nonneg r)
  | top => rw [EReal.top_mul_top]; exact le_top

/-- Dividing a nonnegative extended real by 1024 leaves it nonnegative. -/
theorem div_len_nonneg {s : EReal} (hs : 0 ≤ s) : 0 ≤ Ideal.div s len := by
  rw [len_eq, Ideal.div_coe (by norm_num)]
  exact mul_nonneg hs (EReal.coe_nonneg.mpr (by norm_num))

/-- For 0 < y, multiplying by the reciprocal square root is dividing by the square root. -/
theorem mul_rsqrt_eq_div_sqrt (a y : EReal) (hy : 0 < y) : a * Ideal.rsqrt y = Ideal.div a (Ideal.sqrt y) := by
  induction y using EReal.rec with
  | bot => exact absurd hy (not_lt_bot)
  | coe r =>
    have hr : 0 < r := EReal.coe_pos.mp hy
    have hs : Real.sqrt r ≠ 0 := (Real.sqrt_pos.mpr hr).ne'
    rw [Ideal.rsqrt_coe, Ideal.sqrt_coe, if_neg (not_lt.mpr hr.le), if_neg hr.ne', if_neg (not_lt.mpr hr.le)]
    unfold Ideal.div
    rw [if_neg (by exact_mod_cast hs), EReal.coe_inv]
  | top =>
    rw [Ideal.rsqrt_top, Ideal.sqrt_top]
    unfold Ideal.div
    rw [if_neg (by simp), EReal.inv_top]

variable (x : SX.Idx → EReal) (p : SP.Idx → EReal)

/-- The mean of row (b, s). -/
def mean (b : Fin 4) (s : Fin 8192) : EReal := Ideal.div (∑ j : Fin 1024, x (ix3 b s j)) len
/-- Entry (b, s, k) less its row's mean. -/
def cen (b : Fin 4) (s : Fin 8192) (k : Fin 1024) : EReal := x (ix3 b s k) - mean x b s
/-- The variance of row (b, s), plus ε. -/
def spread (b : Fin 4) (s : Fin 8192) : EReal := Ideal.div (∑ j : Fin 1024, cen x b s j * cen x b s j) len + eps

theorem spread_pos (b : Fin 4) (s : Fin 8192) : 0 < spread x b s := by
  unfold spread
  exact lt_of_lt_of_le eps_pos (le_add_of_nonneg_left (div_len_nonneg (Finset.sum_nonneg fun j _ => self_mul_nonneg _)))

/-- The result with the reciprocal square root, -/
def outMul (b : Fin 4) (s : Fin 8192) (k : Fin 1024) : EReal := cen x b s k * Ideal.rsqrt (spread x b s) + p (ix2 s k)
/-- and with the quotient by the square root. -/
def outDiv (b : Fin 4) (s : Fin 8192) (k : Fin 1024) : EReal := Ideal.div (cen x b s k) (Ideal.sqrt (spread x b s)) + p (ix2 s k)

theorem outMul_eq_outDiv (b : Fin 4) (s : Fin 8192) (k : Fin 1024) : outMul x p b s k = outDiv x p b s k := by
  unfold outMul outDiv; rw [mul_rsqrt_eq_div_sqrt _ _ (spread_pos x b s)]

/-- The whole result array, in the quotient spelling. -/
def result : SX.Idx → EReal := fun i => outDiv x p (i 0) (i 1) (i 2)

theorem result_apply (b : Fin 4) (s : Fin 8192) (k : Fin 1024) : result x p (ix3 b s k) = outDiv x p b s k := rfl

end Cert.RowNorm

end
-- ==== Proof.LibKeepRows.lean ====
/-
  A reduction over the last axis of a rank-3 array that keeps the axis, read at an index.

  For an array of shape [a, b, c]:
  * a [a, b] array cast to [a, b, 1] reads, at (i, j, u), the operand at (i, j)             (shapeCast_ab_ab1_apply);
  * a [a, b, 1] array broadcast to [a, b, c] reads, at (i, j, k), the operand at (i, j, 0)   (broadcastTo_ab1_abc_apply);
  * a [1, b, c] array broadcast to [a, b, c] reads, at (i, j, k), the operand at (0, j, k)   (broadcastTo_1bc_abc_apply);
  * over the exact reals-with-infinities, the sum over the last axis into [a, b] reads, at (i, j), the sum over k
    of the source at (i, j, k)                                                                (sumLast_apply).
  Together: a per-row statistic of an [a, b, c] array, kept as a column and spread back over the row, read at
  (i, j, k), is the statistic of row (i, j). For any extents and (the first three) any element type.
-/
import Idealize.ShloMosaic.Lib.Pipeline.Value
import Idealize.ShloMosaic.Lib.ValueIdx
import Idealize.ShloMosaic.PureOps.Ideal.Laws

noncomputable section

namespace Cert.Lib.KeepRows

open Idealize.ShloMosaic Idealize.ShloMosaic.ValueIdx
open scoped BigOperators

variable {α : Type}

/-- An [a, b] array cast to [a, b, 1] reads, at (i, j, u), the operand at (i, j): the two row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of row (i, j). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A [1, b, c] array broadcast to [a, b, c] reads, at (i, j, k), the operand's one slab at (j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Over the extended reals, the sum of an [a, b, c] array over its last axis reads, at (i, j), the sum over k of the
    entries (i, j, k): the index with the summed coordinate put back is (i, j, k). -/
theorem sumLast_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

end Cert.Lib.KeepRows

end
-- ==== Proof.KerPayI.lean ====
/-
  One grid point's stored value, read at an entry, over the extended reals.

  From the block x0 of rows ([4, 832, 1024]) and the block x1 of positional rows ([832, 1024]) the body stores a
  [4, 832, 1024] value. Its entry (b, r, k) depends only on row (b, r) of x0 and on x1[r, k]: with ρ the row,
      mean = (Σ_j ρ_j) / 1024,   c_j = ρ_j - mean,   y = (Σ_j c_j·c_j) / 1024 + ε,
  the entry is  c_k · y^(-1/2) + x1[r, k]. The row sums come from the two reductions over the last axis (exact sums
  here), kept as a column and spread back over the row; the positional block is spread over the four leading slabs.
-/
import proofs.«149477_g14345190768845_cont_week2b_405_12_alg».proof.Proof.Gen.KernelIdeal.Skeleton
import proofs.«149477_g14345190768845_cont_week2b_405_12_alg».proof.Proof.RowNorm
import proofs.«149477_g14345190768845_cont_week2b_405_12_alg».proof.Proof.LibKeepRows
import Idealize.ShloMosaic.Lib.ValueLayout

set_option maxRecDepth 16384

noncomputable section

namespace Cert.KernelIdeal.Pay

open Cert.KernelIdeal Cert.KernelIdeal.Gen
open Idealize.ShloMosaic Idealize.ShloMosaic.ValueIdx Cert.Lib.KeepRows Cert.RowNorm
open scoped BigOperators

/-- The normalised row ρ at position k, plus q: what an entry of the result is, as a function of its row alone. -/
def rowOut (ρ : Fin 1024 → EReal) (q : EReal) (k : Fin 1024) : EReal :=
  (ρ k - Ideal.div (∑ j, ρ j) len)
      * Ideal.rsqrt (Ideal.div (∑ j, (ρ j - Ideal.div (∑ j', ρ j') len) * (ρ j - Ideal.div (∑ j', ρ j') len)) len + eps)
    + q

/-- The whole-array result (reciprocal-square-root spelling) at (b, s, k) is that function of row (b, s) of x and of
    p[s, k]. -/
theorem outMul_eq_rowOut (x : SX.Idx → EReal) (p : SP.Idx → EReal) (b : Fin 4) (s : Fin 8192) (k : Fin 1024) :
    outMul x p b s k = rowOut (fun j => x (ix3 b s j)) (p (ix2 s k)) k := rfl

/-- Equal sums, and the two literals read as the spec's, give equal entries. -/
theorem rowOut_congr {a M S S' L E q : EReal} (hS : S = S') (hL : L = len) (hE : E = eps) :
    (a - M) * Ideal.rsqrt (Ideal.div S L + E) + q = (a - M) * Ideal.rsqrt (Ideal.div S' len + eps) + q := by
  subst hS hL hE; rfl

theorem pay_apply (X0 : Vec Ideal S4x832x1024 .f32) (X1 : Vec Ideal S832x1024 .f32) (b : Fin 4) (r : Fin 832) (k : Fin 1024) :
    k0_pay1 (F := Ideal) X0 X1 (ix3 b r k) = rowOut (fun j => X0 (ix3 b r j)) (X1 (ix2 r k)) k := by
  -- a sum over the last axis, at (b', r'), is the sum along row (b', r')
  have hsum : ∀ (Y : FVec Ideal S4x832x1024 .f32) (b' : Fin 4) (r' : Fin 832),
      multiReduction (F := Ideal) FKind.add [2] S4x832 Y (0#32) reduces_S4x832x1024_S4x832 (.inl rfl) rfl (ix2 b' r')
        = ∑ j : Fin 1024, Y (ix3 b' r' j) := fun Y b' r' => sumLast_apply Y _ _ _ _ b' r'
  -- the row's mean, kept as a column
  have hmean : ∀ (b' : Fin 4) (r' : Fin 832),
      divf (F := Ideal) (shapeCast S4x832x1 (multiReduction (F := Ideal) FKind.add [2] S4x832 X0 (0#32) reduces_S4x832x1024_S4x832 (.inl rfl) rfl)
          shapeCasts_S4x832_S4x832x1) (broadcast S4x832x1 (FloatOps.ofBits FTy.f32 0x44800000#32)) (ix3 b' r' (0 : Fin 1))
        = Ideal.div (∑ j : Fin 1024, X0 (ix3 b' r' j)) len := by
    intro b' r'
    show Ideal.div (shapeCast S4x832x1 _ _ (ix3 b' r' (0 : Fin 1))) _ = _
    rw [shapeCast_ab_ab1_apply]
    exact congrArg (fun z => Ideal.div z len) (hsum X0 b' r')
  unfold k0_pay1 rowOut
  simp only [addf_apply, mulf_apply, subf_apply]
  rw [broadcastTo_1bc_abc_apply, shapeCast_ab_1ab_apply, broadcastTo_ab1_abc_apply, broadcastTo_ab1_abc_apply, hmean]
  show _ * Ideal.rsqrt (Ideal.div (shapeCast S4x832x1 _ _ (ix3 b r (0 : Fin 1))) _ + _) + _ = _
  rw [shapeCast_ab_ab1_apply]
  refine rowOut_congr ((hsum _ b r).trans (Finset.sum_congr rfl fun j _ => ?_)) rfl rfl
  show (X0 (ix3 b r j) - broadcastTo S4x832x1024 _ _ (ix3 b r j)) * (X0 (ix3 b r j) - broadcastTo S4x832x1024 _ _ (ix3 b r j)) = _
  rw [broadcastTo_ab1_abc_apply, hmean]

end Cert.KernelIdeal.Pay

end
-- ==== Proof.KerGeoI.lean ====
/-
  Where the blocks lie.

  The row axis of length 8192 is cut into ten blocks of 832 rows; block t starts at row 832·t, and the last one
  (t = 9) has only 8192 - 7488 = 704 rows inside the array, so the part of block t that exists has
  min(832, 8192 - 832·t) rows. The other axes are taken whole. Hence, for each of the three windows, entry y of
  the part of block t inside the array is the array's entry with 832·t added to the row coordinate, and every row
  s < 8192 of the result lies in block s / 832.
-/
import proofs.«149477_g14345190768845_cont_week2b_405_12_alg».proof.Proof.Gen.KernelIdeal.Frame
import Idealize.ShloMosaic.Lib.Pipeline.Value
import Idealize.ShloMosaic.Lib.ValueIdx

set_option maxRecDepth 16384

noncomputable section

namespace Cert.KernelIdeal.Geo

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- Where each window's block starts, at every grid point: block t on the row axis, block 0 on the others. -/
theorem index_rows (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem index_pos (t : Fin cfg0.N) : win0_1.index t 0 = t.val ∧ win0_1.index t 1 = 0 :=
  (by decide +kernel : ∀ t : Fin grid0.N, win0_1.index t 0 = t.val ∧ win0_1.index t 1 = 0) t
theorem index_out (t : Fin cfg0.N) : win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0) t

/-- How much of each block lies inside its array: min(832, 8192 - 832·t) rows, the other axes whole. -/
theorem xsize_rows (t : Fin cfg0.N) : win0_0.xsize (grid0.coords t) 0 = 4 ∧ win0_0.xsize (grid0.coords t) 1 = min 832 (8192 - 832 * t.val) ∧ win0_0.xsize (grid0.coords t) 2 = 1024 :=
  (by decide +kernel : ∀ t : Fin grid0.N, win0_0.xsize (grid0.coords t) 0 = 4 ∧ win0_0.xsize (grid0.coords t) 1 = min 832 (8192 - 832 * t.val) ∧ win0_0.xsize (grid0.coords t) 2 = 1024) t
theorem xsize_pos (t : Fin cfg0.N) : win0_1.xsize (grid0.coords t) 0 = min 832 (8192 - 832 * t.val) ∧ win0_1.xsize (grid0.coords t) 1 = 1024 :=
  (by decide +kernel : ∀ t : Fin grid0.N, win0_1.xsize (grid0.coords t) 0 = min 832 (8192 - 832 * t.val) ∧ win0_1.xsize (grid0.coords t) 1 = 1024) t
theorem xsize_out (t : Fin cfg0.N) : win0_2.xsize (grid0.coords t) 0 = 4 ∧ win0_2.xsize (grid0.coords t) 1 = min 832 (8192 - 832 * t.val) ∧ win0_2.xsize (grid0.coords t) 2 = 1024 :=
  (by decide +kernel : ∀ t : Fin grid0.N, win0_2.xsize (grid0.coords t) 0 = 4 ∧ win0_2.xsize (grid0.coords t) 1 = min 832 (8192 - 832 * t.val) ∧ win0_2.xsize (grid0.coords t) 2 = 1024) t

/-- The first operand's block at point t, read at y, is the array at row 832·t + y₁. -/
theorem rows_block_apply (c : Dev nD) (t : Fin cfg0.N) (y : (win0_0.xblock (grid0.coords t)).Idx) (i : S4x8192x1024.Idx)
    (h0 : (i 0).val = (y 0).val) (h1 : (i 1).val = 832 * t.val + (y 1).val) (h2 : (i 2).val = (y 2).val) :
    iblk m c 0 t y = (m ((c : Thread nD τ).loc main_arg0) : S4x8192x1024.Idx → Elt F .f32) i := by
  have hi := index_rows t
  unfold iblk
  rw [View.read_apply]
  show V m c main_arg0 _ = m (c.tc.loc main_arg0) _
  unfold V
  congr 1
  funext a
  apply Fin.ext
  match a with
  | ⟨0, _⟩ => show win0_0.index t 0 * 4 + 1 * (y 0).val = (i 0).val; rw [hi.1, h0]; omega
  | ⟨1, _⟩ => show win0_0.index t 1 * 832 + 1 * (y 1).val = (i 1).val; rw [hi.2.1, h1]; omega
  | ⟨2, _⟩ => show win0_0.index t 2 * 1024 + 1 * (y 2).val = (i 2).val; rw [hi.2.2, h2]; omega

/-- The positional block at point t, read at y, is the table at row 832·t + y₀. -/
theorem pos_block_apply (c : Dev nD) (t : Fin cfg0.N) (y : (win0_1.xblock (grid0.coords t)).Idx) (i : S8192x1024.Idx)
    (h0 : (i 0).val = 832 * t.val + (y 0).val) (h1 : (i 1).val = (y 1).val) :
    iblk m c 1 t y = (m ((c : Thread nD τ).loc main_arg1) : S8192x1024.Idx → Elt F .f32) i := by
  have hi := index_pos t
  unfold iblk
  rw [View.read_apply]
  show V m c main_arg1 _ = m (c.tc.loc main_arg1) _
  unfold V
  congr 1
  funext a
  apply Fin.ext
  match a with
  | ⟨0, _⟩ => show win0_1.index t 0 * 832 + 1 * (y 0).val = (i 0).val; rw [hi.1, h0]; omega
  | ⟨1, _⟩ => show win0_1.index t 1 * 1024 + 1 * (y 1).val = (i 1).val; rw [hi.2, h1]; omega

/-- The result's block at point t of any whole-array contents G, read at y, is G at row 832·t + y₁. -/
theorem out_block_apply (c : Dev nD) (G : Buf (Elt F) ((c : Thread nD τ).loc main_v0)) (t : Fin cfg0.N)
    (y : (win0_2.xblock (grid0.coords t)).Idx) (i : S4x8192x1024.Idx)
    (h0 : (i 0).val = (y 0).val) (h1 : (i 1).val = 832 * t.val + (y 1).val) (h2 : (i 2).val = (y 2).val) :
    (win0_2.blk t).view.read (Elt F) G y = (G : S4x8192x1024.Idx → Elt F .f32) i := by
  have hi := index_out t
  rw [View.read_apply]
  refine congrArg (G : S4x8192x1024.Idx → Elt F .f32) (funext fun a => Fin.ext ?_)
  match a with
  | ⟨0, _⟩ => show win0_2.index t 0 * 4 + 1 * (y 0).val = (i 0).val; rw [hi.1, h0]; omega
  | ⟨1, _⟩ => show win0_2.index t 1 * 832 + 1 * (y 1).val = (i 1).val; rw [hi.2.1, h1]; omega
  | ⟨2, _⟩ => show win0_2.index t 2 * 1024 + 1 * (y 2).val = (i 2).val; rw [hi.2.2, h2]; omega

/-- Every entry of the result array lies in the part of block (row / 832) that is inside the array. -/
theorem out_cover (i : S4x8192x1024.Idx) :
    ∃ t : Fin cfg0.N, (cfg0.win 2).flush t = true ∧ i ∈ ((cfg0.win 2).blk t).view.set := by
  have h0 : (i 0 : Nat) < 4 := (i 0).isLt
  have h1 : (i 1 : Nat) < 8192 := (i 1).isLt
  have h2 : (i 2 : Nat) < 1024 := (i 2).isLt
  have hN : cfg0.N = 10 := N_0
  refine ⟨⟨(i 1 : Nat) / 832, by rw [hN]; omega⟩, flush0_2 _, ?_⟩
  generalize ht : (⟨(i 1 : Nat) / 832, by rw [hN]; omega⟩ : Fin cfg0.N) = t
  have htv : t.val = (i 1 : Nat) / 832 := by rw [← ht]
  have hi := index_out t
  have hx := xsize_out t
  show i ∈ ((View.whole main_v0).slice (win0_2.rect t)).set
  rw [View.set_slice_whole, Rect.mem_set_unit]
  intro a
  match a with
  | ⟨0, _⟩ =>
    show win0_2.index t 0 * 4 ≤ (i 0 : Nat) ∧ (i 0 : Nat) < win0_2.index t 0 * 4 + win0_2.xsize (grid0.coords t) 0
    rw [hi.1, hx.1]; omega
  | ⟨1, _⟩ =>
    show win0_2.index t 1 * 832 ≤ (i 1 : Nat) ∧ (i 1 : Nat) < win0_2.index t 1 * 832 + win0_2.xsize (grid0.coords t) 1
    rw [hi.2.1, hx.2.1, htv]; omega
  | ⟨2, _⟩ =>
    show win0_2.index t 2 * 1024 ≤ (i 2 : Nat) ∧ (i 2 : Nat) < win0_2.index t 2 * 1024 + win0_2.xsize (grid0.coords t) 2
    rw [hi.2.2, hx.2.2]; omega

end Cert.KernelIdeal.Geo

end
-- ==== Proof.KerDatI.lean ====
/-
  The kernel's result array, over the extended reals.

  At grid point t the body finds the part of block t of each operand that lies inside its array in the leading rows
  of the staging buffer, and anything at all in the rows past the array's end (only at the last point are there
  such rows). Each row of the stored value depends on the same row of the first operand and of the positional block
  alone — the row sums are exact sums along the row — so on the rows inside the array the body leaves block t of ONE
  whole-array function of the two arguments, whatever the other rows held: the normalised row plus the positional
  row. The write-back moves exactly those rows. Every row of the result array lies in some block, so the array ends
  holding that function; the two argument arrays are inputs and end as they began.
-/
import proofs.«149477_g14345190768845_cont_week2b_405_12_alg».proof.Proof.KerBodyI
import proofs.«149477_g14345190768845_cont_week2b_405_12_alg».proof.Proof.KerPayI
import proofs.«149477_g14345190768845_cont_week2b_405_12_alg».proof.Proof.KerGeoI

set_option maxRecDepth 16384

noncomputable section

namespace Cert.KernelIdeal.Exact

open Cert.KernelIdeal Cert.KernelIdeal.Gen Cert.KernelIdeal.Geo Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.RowNorm

local notation "𝕄" => MT nD τ sig Unit (Elt Ideal) ℕ (UR sig nD τ) ℕ

variable (m : (ℓ : Loc nD τ sig) → Buf (Elt Ideal) ℓ) (ρ : Dev nD → PrngReg)

/-- The two argument arrays as launched. -/
abbrev argX (c : Dev nD) : SX.Idx → EReal := m ((c : Thread nD τ).loc main_arg0)
abbrev argP (c : Dev nD) : SP.Idx → EReal := m ((c : Thread nD τ).loc main_arg1)

/-- The whole result: each row of the first argument normalised, the positional row added. -/
def whole (c : Dev nD) : Buf (Elt Ideal) ((c : Thread nD τ).loc main_v0) :=
  (fun i => outMul (argX m c) (argP m c) (i 0) (i 1) (i 2) : S4x8192x1024.Idx → EReal)

theorem whole_apply (c : Dev nD) (b : Fin 4) (s : Fin 8192) (k : Fin 1024) :
    (whole m c : S4x8192x1024.Idx → EReal) (ix3 b s k) = outMul (argX m c) (argP m c) b s k := rfl

/-- In the quotient spelling: the whole result is the normalisation the reference computes (the spread under the root
    is positive, so the two spellings agree). -/
theorem whole_eq_result (c : Dev nD) :
    (whole m c : S4x8192x1024.Idx → EReal) = Cert.RowNorm.result (argX m c) (argP m c) := by
  funext i
  obtain ⟨b, s, k, rfl⟩ : ∃ (b : Fin 4) (s : Fin 8192) (k : Fin 1024), i = ix3 b s k := ⟨i 0, i 1, i 2, eq_ix3 i⟩
  rw [whole_apply, result_apply, outMul_eq_outDiv]

/-! ## What a fetched buffer holds on the rows inside the array -/

/-- Row r of the rows' buffer after the fetch at point t, when row 832·t + r exists: the array's row, whatever
    filled the rest of the buffer. -/
theorem fetched_rows_apply (c : Dev nD) (t : Fin cfg0.N) (d : win0_0.block.Idx → EReal) (b : Fin 4) (r : Fin 832) (j : Fin 1024)
    (s : Fin 8192) (hr : r.val < min 832 (8192 - 832 * t.val)) (hs : s.val = 832 * t.val + r.val) :
    win0_0.fill (grid0.coords t) d (iblk m c 0 t) (ix3 b r j) = argX m c (ix3 b s j) := by
  have hx := xsize_rows t
  have hm : win0_0.moved (grid0.coords t) (ix3 b r j) = true :=
    (win0_0.moved_iff _ _).mpr fun a => match a with
      | ⟨0, _⟩ => lt_of_lt_of_eq b.isLt hx.1.symm
      | ⟨1, _⟩ => lt_of_lt_of_eq hr hx.2.1.symm
      | ⟨2, _⟩ => lt_of_lt_of_eq j.isLt hx.2.2.symm
  unfold Window.fill
  rw [dif_pos hm]
  exact rows_block_apply m c t _ (ix3 b s j) rfl hs rfl

/-- The same for the positional buffer. -/
theorem fetched_pos_apply (c : Dev nD) (t : Fin cfg0.N) (d : win0_1.block.Idx → EReal) (r : Fin 832) (k : Fin 1024)
    (s : Fin 8192) (hr : r.val < min 832 (8192 - 832 * t.val)) (hs : s.val = 832 * t.val + r.val) :
    win0_1.fill (grid0.coords t) d (iblk m c 1 t) (ix2 r k) = argP m c (ix2 s k) := by
  have hx := xsize_pos t
  have hm : win0_1.moved (grid0.coords t) (ix2 r k) = true :=
    (win0_1.moved_iff _ _).mpr fun a => match a with
      | ⟨0, _⟩ => lt_of_lt_of_eq hr hx.1.symm
      | ⟨1, _⟩ => lt_of_lt_of_eq k.isLt hx.2.symm
  unfold Window.fill
  rw [dif_pos hm]
  exact pos_block_apply m c t _ (ix2 s k) hs rfl

/-! ## One point's stored value, on the rows inside the array -/

/-- Whatever the fetches left past the arrays' end, the rows of the stored value that the write-back moves are
    block t of the whole result. -/
theorem point_value (c : Dev nD) (t : Fin cfg0.N) (d0 : win0_0.block.Idx → EReal) (d1 : win0_1.block.Idx → EReal) :
    win0_2.cut (grid0.coords t)
        (k0_pay1 (F := Ideal) (win0_0.fill (grid0.coords t) d0 (iblk m c 0 t)) (win0_1.fill (grid0.coords t) d1 (iblk m c 1 t)))
      = (win0_2.blk t).view.read (Elt Ideal) (whole m c) := by
  funext y
  have hx := xsize_out t
  have hb : (y 0).val < 4 := lt_of_lt_of_eq (y 0).isLt hx.1
  have hr : (y 1).val < min 832 (8192 - 832 * t.val) := lt_of_lt_of_eq (y 1).isLt hx.2.1
  have hk : (y 2).val < 1024 := lt_of_lt_of_eq (y 2).isLt hx.2.2
  have hr' : (y 1).val < 832 := by omega
  have hs : 832 * t.val + (y 1).val < 8192 := by omega
  obtain ⟨b, hbv⟩ : ∃ b : Fin 4, b.val = (y 0).val := ⟨⟨_, hb⟩, rfl⟩
  obtain ⟨r, hrv⟩ : ∃ r : Fin 832, r.val = (y 1).val := ⟨⟨_, hr'⟩, rfl⟩
  obtain ⟨k, hkv⟩ : ∃ k : Fin 1024, k.val = (y 2).val := ⟨⟨_, hk⟩, rfl⟩
  obtain ⟨s, hsv⟩ : ∃ s : Fin 8192, s.val = 832 * t.val + r.val := ⟨⟨832 * t.val + (y 1).val, hs⟩, by rw [hrv]⟩
  have hrr : r.val < min 832 (8192 - 832 * t.val) := by rw [hrv]; exact hr
  have e1 : win0_2.xinj (grid0.coords t) y = ix3 b r k := funext fun a => Fin.ext (match a with
    | ⟨0, _⟩ => hbv.symm | ⟨1, _⟩ => hrv.symm | ⟨2, _⟩ => hkv.symm)
  refine (congrArg (k0_pay1 (F := Ideal) _ _) e1).trans ?_
  refine (pay_apply _ _ b r k).trans ?_
  refine Eq.trans ?_ (out_block_apply c (whole m c) t y (ix3 b s k) hbv
    (hsv.trans (congrArg (fun z => 832 * t.val + z) hrv)) hkv).symm
  rw [whole_apply, outMul_eq_rowOut]
  refine congrArg₂ (fun ρ' q => rowOut ρ' q k) (funext fun j => ?_) ?_
  · exact fetched_rows_apply m c t d0 b r j s hrr hsv
  · exact fetched_pos_apply m c t d1 r k s hrr hsv

/-! ## The proof data -/

/-- After the body at point t: each input's buffer at its block (past the array's end, a word nothing reads), the
    result's at block t of the whole result (likewise). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .f32 0#32) (iblk m c 0 t)
    | ⟨1, _⟩ => win0_1.fill (grid0.coords t) (fun _ => Scalar.ofBits (F := Ideal) .f32 0#32) (iblk m c 1 t)
    | ⟨2, _⟩ => win0_2.fill (grid0.coords t) (fun _ => Scalar.ofBits (F := Ideal) .f32 0#32) ((win0_2.blk t).view.read (Elt Ideal) (whole m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) (fun _ => Scalar.ofBits (F := Ideal) .f32 0#32) (iblk m c 0 t) := by dsimp only [dats]
theorem after0_1 (c : Dev nD) (t : Fin cfg0.N) :
    (dats m 0 c).after 1 t = win0_1.fill (grid0.coords t) (fun _ => Scalar.ofBits (F := Ideal) .f32 0#32) (iblk m c 1 t) := by dsimp only [dats]
theorem after0_2 (c : Dev nD) (t : Fin cfg0.N) :
    (dats m 0 c).after 2 t = win0_2.fill (grid0.coords t) (fun _ => Scalar.ofBits (F := Ideal) .f32 0#32) ((win0_2.blk t).view.read (Elt Ideal) (whole m c)) := by
  dsimp only [dats]

/-- Both inputs are fetched at every point: the body finds the block on the rows inside the array, d elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl

/-! ## The body obligation -/

theorem sound_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare (win0_0.fill (grid0.coords t) d (win0_0.cut (grid0.coords t) ((dats m 0 c).after 0 t))))
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t)))))) := by
  unfold bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill, Window.cut_fill]
  iintro ⟨HΦ, Ho, ⟨%d0, H0⟩, ⟨%d1, H1⟩, ⟨%d2, H2⟩⟩
  iapply (Body.run (F := Ideal) c (grid0.coords t) _ _ _ _ _ _
    (win0_0.fill (grid0.coords t) d0 (iblk m c 0 t)) (win0_1.fill (grid0.coords t) d1 (iblk m c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists (k0_pay1 (F := Ideal) (win0_0.fill (grid0.coords t) d0 (iblk m c 0 t)) (win0_1.fill (grid0.coords t) d1 (iblk m c 1 t)))
  rw [← point_value m c t d0 d1, Window.fill_cut]
  iexact H2

theorem body_obligation (c : Dev nD) : BodyObligationLoose (dats m 0 c) (defs₀ (F := Ideal)) Variants.none () Set.univ := fun t => by
  rw [bigSep_W0, bigSep_W0]
  exact sound_point m c t

/-! ## The run and the final arrays -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- What each write-back moves is its block of the whole result. -/
theorem flushed_eq (c : Dev nD) (t : Fin cfg0.N) (_ : (cfg0.win 2).flush t = true) :
    (dats m 0 c).flushed 2 t = ((cfg0.win 2).blk t).view.read (Elt Ideal) (whole m c) := by
  show (cfg0.win 2).cut (grid0.coords t) ((dats m 0 c).after 2 t) = _
  rw [after0_2]
  exact win0_2.cut_fill _ _ _

/-- The blocks cover the result array, so it ends holding the whole result. -/
theorem final_out (c : Dev nD) : (dats m 0 c).arrAt 2 cfg0.N = whole m c :=
  (dats m 0 c).arrAt_eq_of_cover 2 (whole m c) (flushed_eq m c) out_cover

/-- Every weakly fair execution of the kernel's program terminates without a fault, with the result array at the
    whole result and the two argument arrays unchanged. -/
theorem run : θ_run defs (onTc (τ := τ) (main (F := Ideal))) ⟨m, fun _ => 0, ρ⟩ (fun r => ∀ c : Dev nD,
      r.2.mem ((c.tc : Thread nD τ).loc main_v0) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final_out m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Exact

end
-- ==== Proof.RefRun.lean ====
/-
  The reference program's @main as a straight line of its fifty host operations, and its run.

  @main calls the outlined function that takes rows of the second argument at an index vector, which in turn
  calls the outlined three-way select. A call means its callee's body on the operands, so the line lists the
  callee's operations at the call site over the buffers of that call: two operations of @main (the index
  vector 0 … 8191 and its broadcast to one row), twenty-three of the row-taking function (the select of the
  inner function among them), then @main's twenty-five of the normalisation itself.

  The run: from any memory with zero counters every weakly fair execution terminates and leaves every
  TensorCore buffer at the fold of the operations' results over the launch contents.
-/
import proofs.«149477_g14345190768845_cont_week2b_405_12_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded at their sites. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    TRef.nullary main_call0.c (constantI S_ 32 0#32),
    TRef.unary main_call0.c main_call0.v0 (broadcastInDim S1x8192 ![] bcast_S_S1x8192),
    TRef.binary (.of main_v1) main_call0.v0 main_call0.v1 (cmpi .slt),
    TRef.nullary main_call0.c_0 (constantI S_ 32 8192#32),
    TRef.unary main_call0.c_0 main_call0.v2 (broadcastInDim S1x8192 ![] bcast_S_S1x8192),
    TRef.binary (.of main_v1) main_call0.v2 main_call0.v3 addi,
    TRef.ternary main_call0.v1 main_call0.v3 (.of main_v1) main_call0.call0.v0 select,
    TRef.unary main_call0.call0.v0 main_call0.v5 (broadcastInDim S1x8192x1 ![0, 1] bcast_S1x8192_S1x8192x1_0_1),
    TRef.nullary main_call0.c_1 (constantI S1 32 8191#32),
    TRef.nullary main_call0.c_2 (constantI S_ 32 0#32),
    TRef.unary main_call0.c_2 main_call0.v6 (broadcastInDim S1x8192x1 ![] bcast_S_S1x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x8192x1 ![0, 1, 2] bcast_S1x1x1_S1x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x8192x1_S1x8192_d2 h_S_),
    TRef.binary (.of main_arg1) main_call0.v5 main_call0.v13 (fun x i => Host.gather gather_S8192x1024_S1x8192x1_S1x8192x1024_2_0_n_n_0_2_11024 x i),
    TRef.unary main_call0.v12 main_call0.v14 (broadcastInDim S1x8192x1024 ![0, 1] bcast_S1x8192_S1x8192x1024_0_1),
    TRef.nullary main_call0.cst (constant S_ .f32 0x7FC00000#32),
    TRef.unary main_call0.cst main_call0.v15 (broadcastInDim S1x8192x1024 ![] bcast_S_S1x8192x1024),
    TRef.ternary main_call0.v14 main_call0.v13 main_call0.v15 main_call0.v16 select,
    nullary main_cst (constant S_ .f32 0x00000000#32),
    binary main_arg0 main_cst main_v3 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v3 main_v4 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v5 (broadcastInDim S4x8192x1 ![] bcast_S_S4x8192x1 : (⟨S_, .f32⟩ : BufTy).Contents (Elt F) → (⟨S4x8192x1, .f32⟩ : BufTy).Contents (Elt F)),
    binary main_v4 main_v5 main_v6 (Host.divf : (⟨S4x8192x1, .f32⟩ : BufTy).Contents (Elt F) → (⟨S4x8192x1, .f32⟩ : BufTy).Contents (Elt F) → (⟨S4x8192x1, .f32⟩ : BufTy).Contents (Elt F)),
    unary main_v6 main_v7 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v7 main_v8 (subf : (⟨S4x8192x1024, .f32⟩ : BufTy).Contents (Elt F) → (⟨S4x8192x1024, .f32⟩ : BufTy).Contents (Elt F) → (⟨S4x8192x1024, .f32⟩ : BufTy).Contents (Elt F)),
    binary main_v8 main_v8 main_v9 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v9 main_cst_1 main_v10 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v10 main_v11 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v12 (broadcastInDim S4x8192x1 ![] bcast_S_S4x8192x1 : (⟨S_, .f32⟩ : BufTy).Contents (Elt F) → (⟨S4x8192x1, .f32⟩ : BufTy).Contents (Elt F)),
    binary main_v11 main_v12 main_v13 (Host.divf : (⟨S4x8192x1, .f32⟩ : BufTy).Contents (Elt F) → (⟨S4x8192x1, .f32⟩ : BufTy).Contents (Elt F) → (⟨S4x8192x1, .f32⟩ : BufTy).Contents (Elt F)),
    unary main_v6 main_v14 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v14 main_v15 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x3727C5AC#32),
    unary main_cst_3 main_v16 (broadcastInDim S4x8192x1 ![] bcast_S_S4x8192x1 : (⟨S_, .f32⟩ : BufTy).Contents (Elt F) → (⟨S4x8192x1, .f32⟩ : BufTy).Contents (Elt F)),
    binary main_v13 main_v16 main_v17 (addf : (⟨S4x8192x1, .f32⟩ : BufTy).Contents (Elt F) → (⟨S4x8192x1, .f32⟩ : BufTy).Contents (Elt F) → (⟨S4x8192x1, .f32⟩ : BufTy).Contents (Elt F)),
    unary main_v17 main_v18 (Host.sqrt : (⟨S4x8192x1, .f32⟩ : BufTy).Contents (Elt F) → (⟨S4x8192x1, .f32⟩ : BufTy).Contents (Elt F)),
    unary main_v18 main_v19 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v15 main_v19 main_v20 (Host.divf : (⟨S4x8192x1024, .f32⟩ : BufTy).Contents (Elt F) → (⟨S4x8192x1024, .f32⟩ : BufTy).Contents (Elt F) → (⟨S4x8192x1024, .f32⟩ : BufTy).Contents (Elt F)),
    unary main_v2 main_v21 (broadcastInDim S4x8192x1024 ![0, 1, 2] bcast_S1x8192x1024_S4x8192x1024_0_1_2 : (⟨S1x8192x1024, .f32⟩ : BufTy).Contents (Elt F) → (⟨S4x8192x1024, .f32⟩ : BufTy).Contents (Elt F)),
    binary main_v20 main_v21 main_v22 (addf : (⟨S4x8192x1024, .f32⟩ : BufTy).Contents (Elt F) → (⟨S4x8192x1024, .f32⟩ : BufTy).Contents (Elt F) → (⟨S4x8192x1024, .f32⟩ : BufTy).Contents (Elt F)) ]

-- fifty binds re-associated: the rewrite under the chain recurses once per statement
set_option maxRecDepth 2048 in
/-- @main is that straight line: the two functions' definitions unfolded at their calls and the calls' records at
    their fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., binary_bufs_sub ..⟩

/-- At the compiled mesh, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  What the reference's operations compose to, as functions of the two argument arrays, and the fold of the
  operation list read at the result buffer and at the two argument buffers.

  The index vector is the iota 0 … 8191 broadcast to one row. The row-taking function wraps negative entries
  (adds 8192 where the entry is below zero), gathers the rows of the table at the wrapped entries, and keeps a
  gathered row only where its entry lies in 0 … 8191 (elsewhere the not-a-number constant). The normalisation:
  the row mean is the row sum over 1024, the centred entries are the entries less the mean, the variance is
  the sum of the centred entries' squares over 1024, and the result is the centred entry over the square root
  of the variance plus ε, plus the taken row's entry.
-/
import proofs.«149477_g14345190768845_cont_week2b_405_12_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The index vector: 0 … 8191 along the second axis of a one-row array. -/
def idxRow : IVec S1x8192 32 := broadcastInDim S1x8192 ![1] bcast_S8192_S1x8192_1 (iotaInDim S8192 32 0)

/-- The index vector with negative entries wrapped: entry + 8192 where the entry is below zero. -/
def idxWrapped : IVec S1x8192 32 :=
  select (cmpi .slt idxRow (broadcastInDim S1x8192 ![] bcast_S_S1x8192 (constantI S_ 32 0#32)))
    (addi idxRow (broadcastInDim S1x8192 ![] bcast_S_S1x8192 (constantI S_ 32 8192#32))) idxRow

/-- The wrapped entries as start indices: a trailing unit axis added. -/
def idxStart : IVec S1x8192x1 32 := broadcastInDim S1x8192x1 ![0, 1] bcast_S1x8192_S1x8192x1_0_1 idxWrapped

/-- Per entry: does it lie in 0 … 8191 (the conjunction of the two comparisons, and-reduced over the unit axis). -/
def inRange : IVec S1x8192 1 :=
  Host.reduce IntOp.andi
    (andi (cmpi .sge idxStart (broadcastInDim S1x8192x1 ![] bcast_S_S1x8192x1 (constantI S_ 32 0#32)))
      (cmpi .sle idxStart (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- The rows of the table `p` taken at the index vector. -/
def taken (p : FVec F S8192x1024 .f32) : FVec F S1x8192x1024 .f32 :=
  select (broadcastInDim S1x8192x1024 ![0, 1] bcast_S1x8192_S1x8192x1024_0_1 inRange)
    (Host.gather gather_S8192x1024_S1x8192x1_S1x8192x1024_2_0_n_n_0_2_11024 p idxStart)
    (broadcastInDim S1x8192x1024 ![] bcast_S_S1x8192x1024 (constant S_ .f32 0x7FC00000#32))

/-- A row sum over 1024, as a column: the host sum over the last axis from zero, a unit axis added, divided by 1024. -/
def rowAvg (y : FVec F S4x8192x1024 .f32) : FVec F S4x8192x1 .f32 :=
  Host.divf
    (broadcastInDim S4x8192x1 ![0, 1] bcast_S4x8192_S4x8192x1_0_1
      (Host.reduceAdd y (constant S_ .f32 0x00000000#32) reducesTo_S4x8192x1024_S4x8192_d2 h_S_))
    (broadcastInDim S4x8192x1 ![] bcast_S_S4x8192x1 (constant S_ .f32 0x44800000#32))

/-- The entries less their row's mean. -/
def centred (x : FVec F S4x8192x1024 .f32) : FVec F S4x8192x1024 .f32 :=
  subf x (broadcastInDim S4x8192x1024 ![0, 1, 2] bcast_S4x8192x1_S4x8192x1024_0_1_2 (rowAvg x))

/-- The square root of the row variance plus ε, as a column. -/
def rowDev (x : FVec F S4x8192x1024 .f32) : FVec F S4x8192x1 .f32 :=
  Host.sqrt (addf (rowAvg (mulf (centred x) (centred x)))
    (broadcastInDim S4x8192x1 ![] bcast_S_S4x8192x1 (constant S_ .f32 0x3727C5AC#32)))

/-- What the reference computes from the two arguments' contents. -/
def out (x : FVec F S4x8192x1024 .f32) (p : FVec F S8192x1024 .f32) : FVec F S4x8192x1024 .f32 :=
  addf (Host.divf (centred x) (broadcastInDim S4x8192x1024 ![0, 1, 2] bcast_S4x8192x1_S4x8192x1024_0_1_2 (rowDev x)))
    (broadcastInDim S4x8192x1024 ![0, 1, 2] bcast_S1x8192x1024_S4x8192x1024_0_1_2 (taken p))

attribute [local irreducible] Host.reduce Host.gather Host.reduceAdd in
set_option maxRecDepth 8192 in
/-- The fold at the result buffer is `out` of the arguments' contents: each operation's result at its own buffer is
    its function's value, at any other buffer what was there; the typed references' casts are the identity at
    these literal references. The reductions and the gather are kept folded meanwhile. -/
theorem out_eq (V : Valuation τ sig (Elt F)) :
    after ops V (main_v22 : DevRef τ sig) = out (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

end Cert.RefSide

end
-- ==== Proof.RefIndex.lean ====
/-
  The integer part of the reference, read entry by entry: the index vector is s ↦ s, so wrapping changes
  nothing, every entry is in range, and the gather reads row s of the table.

  The index vector is the iota 0 … 8191; read as a signed 32-bit word, s < 8192 is s itself. It is never below
  zero, so the select that wraps negative entries returns it unchanged; it lies between 0 and 8191, so both
  range comparisons hold and their and-reduce over the unit axis is one. The gather of whole rows along the
  first axis reads, at entry (a, s, k), the table at the row its start index names (read signed, clamped into
  0 … 8191) and at column k; with start index s that is the table's entry (s, k). Hence the taken rows are the
  table itself under a leading unit axis.
-/
import proofs.«149477_g14345190768845_cont_week2b_405_12_alg».proof.Proof.RefTerm
import Idealize.ShloMosaic.Lib.IdealHost
import Idealize.ShloMosaic.Lib.Pipeline.Value
import Idealize.ShloMosaic.Lib.ReduceAll
import Idealize.ShloMosaic.Lib.WordArith

noncomputable section

namespace Cert.RefSide

open Cert.ReferenceIdeal Cert.ReferenceIdeal.Gen Idealize.ShloMosaic Idealize.ShloMosaic.ValueIdx

/-- The index vector at entry (a, s) is the word of s. -/
theorem idxRow_apply (a : Fin 1) (s : Fin 8192) : idxRow (ix2 a s) = BitVec.ofNat 32 s.val := by
  unfold idxRow
  refine (broadcastInDim_apply _ _ _ (ix2 a s) (ix1 s) (fun d => match d with | ⟨0, _⟩ => rfl)).trans ?_
  rfl

/-- Read signed, the word of s < 8192 is s. -/
theorem toInt_word (s : Fin 8192) : (BitVec.ofNat 32 s.val).toInt = (s.val : Int) :=
  WordArith.toInt_ofNat_small s.val (by have := s.isLt; omega)

/-- No entry of the index vector is negative, so wrapping leaves it as it is. -/
theorem idxWrapped_apply (a : Fin 1) (s : Fin 8192) : idxWrapped (ix2 a s) = BitVec.ofNat 32 s.val := by
  have h : idxWrapped (ix2 a s)
      = Scalar.select (IntOp.cmpi .slt (idxRow (ix2 a s)) 0#32) (IntOp.addi (idxRow (ix2 a s)) 8192#32) (idxRow (ix2 a s)) := rfl
  rw [h, idxRow_apply]
  have hc : IntOp.cmpi .slt (BitVec.ofNat 32 s.val) 0#32 = 0#1 := by
    refine eq_zero_of_ne_one fun e => ?_
    rw [IntOp.cmpi_slt, toInt_word] at e
    have : (0#32 : BitVec 32).toInt = 0 := rfl
    omega
  rw [hc, select_zero]

/-- The start indices: the same words under a trailing unit axis. -/
theorem idxStart_apply (a : Fin 1) (s : Fin 8192) (u : Fin 1) : idxStart (ix3 a s u) = BitVec.ofNat 32 s.val := by
  unfold idxStart
  refine (broadcastInDim_apply _ _ _ (ix3 a s u) (ix2 a s) (fun d => match d with | ⟨0, _⟩ => ?_ | ⟨1, _⟩ => rfl)).trans ?_
  · show (a : Nat) = 0
    omega
  · exact idxWrapped_apply a s

/-- An and-reduce of an array of ones from the initial value one is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  induction l with
  | nil => rfl
  | cons b l ih =>
    rw [List.foldl_cons, hx b, show IntOp.andi (1#1) (1#1) = 1#1 from by decide]
    exact ih

/-- Every entry of the index vector lies in 0 … 8191. -/
theorem inRange_apply (a : Fin 1) (s : Fin 8192) : inRange (ix2 a s) = 1#1 := by
  unfold inRange
  refine reduce_andi_ones _ _ _ _ _ (fun i => ?_) rfl
  obtain ⟨a', s', u', rfl⟩ : ∃ (a' : Fin 1) (s' : Fin 8192) (u' : Fin 1), i = ix3 a' s' u' := ⟨i 0, i 1, i 2, eq_ix3 i⟩
  show IntOp.andi (IntOp.cmpi .sge (idxStart (ix3 a' s' u')) 0#32) (IntOp.cmpi .sle (idxStart (ix3 a' s' u')) 8191#32) = 1#1
  rw [idxStart_apply]
  refine IntOp.andi_eq_one.2 ⟨IntOp.cmpi_sge.2 ?_, IntOp.cmpi_sle.2 ?_⟩
  · rw [toInt_word]
    have : (0#32 : BitVec 32).toInt = 0 := rfl
    omega
  · rw [toInt_word]
    have : (8191#32 : BitVec 32).toInt = 8191 := rfl
    have := s'.isLt
    omega

/-- The gather of whole rows of a two-axis table at a column of start indices, read at an entry: the table's row at
    the start index read signed and clamped into 0 … 8191, at the entry's last coordinate. -/
theorem gather_rows_apply {α : Type} (x : S8192x1024.Idx → α) (idx : IVec S1x8192x1 32) (a : Fin 1) (s : Fin 8192)
    (k : Fin 1024) :
    Host.gather gather_S8192x1024_S1x8192x1_S1x8192x1024_2_0_n_n_0_2_11024 x idx (ix3 a s k)
      = x (ix2 (⟨min (idx (ix3 a s (0 : Fin 1))).toInt.toNat 8191, by omega⟩ : Fin 8192) k) := by
  unfold Host.gather
  congr 1
  funext b
  have hsi : gather_S8192x1024_S1x8192x1_S1x8192x1024_2_0_n_n_0_2_11024.siIdx (ix3 a s k)
      ⟨List.idxOf (0 : Fin 2) gather_S8192x1024_S1x8192x1_S1x8192x1024_2_0_n_n_0_2_11024.startIndexMap,
        List.idxOf_lt_length_iff.2 (List.mem_singleton.mpr rfl)⟩ = ix3 a s (0 : Fin 1) := by
    funext c; refine Fin.ext ?_
    match c with
    | ⟨0, _⟩ => rfl
    | ⟨1, _⟩ => rfl
    | ⟨2, _⟩ => rfl
  match b with
  | ⟨0, _⟩ =>
    refine Fin.ext ?_
    show gather_S8192x1024_S1x8192x1_S1x8192x1024_2_0_n_n_0_2_11024.start (ix3 a s k) idx 0
      + gather_S8192x1024_S1x8192x1_S1x8192x1024_2_0_n_n_0_2_11024.batchCoord (ix3 a s k) 0
      + gather_S8192x1024_S1x8192x1_S1x8192x1024_2_0_n_n_0_2_11024.offCoord (ix3 a s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S1x8192x1_S1x8192x1024_2_0_n_n_0_2_11024.startIndexMap from List.mem_singleton.mpr rfl)]
    rw [hsi]
    rfl
  | ⟨1, _⟩ =>
    refine Fin.ext ?_
    show gather_S8192x1024_S1x8192x1_S1x8192x1024_2_0_n_n_0_2_11024.start (ix3 a s k) idx 1
      + gather_S8192x1024_S1x8192x1_S1x8192x1024_2_0_n_n_0_2_11024.batchCoord (ix3 a s k) 1
      + gather_S8192x1024_S1x8192x1_S1x8192x1024_2_0_n_n_0_2_11024.offCoord (ix3 a s k) 1 = _
    rw [GatherDims.batchCoord_eq_zero _ _ _ List.not_mem_nil]
    unfold GatherDims.start
    rw [dif_neg (show (1 : Fin 2) ∉ gather_S8192x1024_S1x8192x1_S1x8192x1024_2_0_n_n_0_2_11024.startIndexMap from by decide)]
    simp only [Nat.add_zero, Nat.zero_add]
    rfl

/-- With start index s the gather reads the table's entry (s, k). -/
theorem gather_rows_of_eq {α : Type} (x : S8192x1024.Idx → α) (idx : IVec S1x8192x1 32) (a : Fin 1) (s : Fin 8192)
    (k : Fin 1024) (h : (idx (ix3 a s (0 : Fin 1))).toInt.toNat = s.val) :
    Host.gather gather_S8192x1024_S1x8192x1_S1x8192x1024_2_0_n_n_0_2_11024 x idx (ix3 a s k) = x (ix2 s k) := by
  rw [gather_rows_apply]
  refine congrArg (fun r : Fin 8192 => x (ix2 r k)) (Fin.ext ?_)
  show min (idx (ix3 a s (0 : Fin 1))).toInt.toNat 8191 = s.val
  rw [h]
  have := s.isLt
  omega

variable {F : FTy → Type} [FloatOps F]

/-- The rows taken at the index vector are the table's own rows. -/
theorem taken_apply (p : FVec F S8192x1024 .f32) (a : Fin 1) (s : Fin 8192) (k : Fin 1024) :
    taken p (ix3 a s k) = p (ix2 s k) := by
  have h : taken p (ix3 a s k)
      = Scalar.select (broadcastInDim S1x8192x1024 ![0, 1] bcast_S1x8192_S1x8192x1024_0_1 inRange (ix3 a s k))
          (Host.gather gather_S8192x1024_S1x8192x1_S1x8192x1024_2_0_n_n_0_2_11024 p idxStart (ix3 a s k))
          (broadcastInDim S1x8192x1024 ![] bcast_S_S1x8192x1024 (constant S_ .f32 0x7FC00000#32) (ix3 a s k)) := rfl
  have hm : broadcastInDim S1x8192x1024 ![0, 1] bcast_S1x8192_S1x8192x1024_0_1 inRange (ix3 a s k) = 1#1 :=
    (broadcastInDim_apply _ _ _ (ix3 a s k) (ix2 a s) (fun d => match d with
      | ⟨0, _⟩ => by show (a : Nat) = 0; omega
      | ⟨1, _⟩ => rfl)).trans (inRange_apply a s)
  rw [h, hm, select_one]
  refine gather_rows_of_eq p idxStart a s k ?_
  rw [idxStart_apply, toInt_word]
  rfl

end Cert.RefSide

end
-- ==== Proof.RefValue.lean ====
/-
  The reference's result is the row normalisation with the positional row added, entry by entry, and its run.

  At the exact values the host's quotient is the exact division, its square root the exact square root, and its
  sum over the last axis from the zero word is 0 plus the sum of the row's entries. Reading each operation at an
  entry (b, s, k): the mean is the row sum over 1024, the centred entry is the entry less the mean, the
  variance is the sum of the centred entries' squares over 1024, and the result is the centred entry over
  the square root of the variance plus ε, plus the taken row's entry — which is the table's entry (s, k). That
  is the quotient spelling of the normalisation, so the two arrays are equal. The run then says: every weakly fair
  execution of the reference terminates with its result buffer at that array of the two arguments' launch contents
  and the arguments unchanged.
-/
import proofs.«149477_g14345190768845_cont_week2b_405_12_alg».proof.Proof.RefIndex
import proofs.«149477_g14345190768845_cont_week2b_405_12_alg».proof.Proof.RowNorm

noncomputable section

namespace Cert.RefSide

open Cert.ReferenceIdeal Cert.ReferenceIdeal.Gen Idealize.ShloMosaic Idealize.ShloMosaic.ValueIdx
open scoped BigOperators

open Cert.RowNorm (len eps)

/-- The shape fact that names the index a sum over the last axis reads. -/
theorem reduces_last : S4x8192x1024.Reduces [2] S4x8192 := by decide

/-- The row (b, s) with the coordinate k put back on the last axis. -/
theorem lift_last (b : Fin 4) (s : Fin 8192) (k : Fin 1024) : reduces_last.lift (ix2 b s) k = ix3 b s k := by
  funext d
  match d with
  | ⟨0, _⟩ => rfl
  | ⟨1, _⟩ => rfl
  | ⟨2, _⟩ => rfl

/-- A row sum over 1024 read at its row: the sum of the row's entries, over the row length. -/
theorem rowAvg_apply (y : FVec Ideal S4x8192x1024 .f32) (b : Fin 4) (s : Fin 8192) (u : Fin 1) :
    rowAvg y (ix3 b s u) = Ideal.div (∑ j : Fin 1024, y (ix3 b s j)) len := by
  unfold rowAvg
  rw [hostDivf_apply]
  refine congrArg₂ Ideal.div ?_ rfl
  refine (broadcastInDim_apply _ _ _ (ix3 b s u) (ix2 b s) (fun d => match d with | ⟨0, _⟩ => rfl | ⟨1, _⟩ => rfl)).trans ?_
  rw [hostReduceAdd_apply]
  refine (Ideal.hostReduceAdd_single _ reduces_last y _ (ix2 b s)).trans ?_
  rw [constant_apply, Ideal.ofBits_zero_f32, zero_add]
  exact Finset.sum_congr rfl fun k _ => congrArg y (lift_last b s k)

/-- The centred entry. -/
theorem centred_apply (x : FVec Ideal S4x8192x1024 .f32) (b : Fin 4) (s : Fin 8192) (k : Fin 1024) :
    centred x (ix3 b s k) = Cert.RowNorm.cen x b s k := by
  unfold centred
  show _ = x (ix3 b s k) - Ideal.div (∑ j : Fin 1024, x (ix3 b s j)) len
  rw [subf_apply]
  refine congrArg (x (ix3 b s k) - ·) ?_
  refine (broadcastInDim_apply _ _ _ (ix3 b s k) (ix3 b s (0 : Fin 1)) (fun d => match d with | ⟨0, _⟩ => rfl | ⟨1, _⟩ => rfl | ⟨2, _⟩ => rfl)).trans ?_
  exact rowAvg_apply x b s 0

/-- The square root of the variance plus ε. -/
theorem rowDev_apply (x : FVec Ideal S4x8192x1024 .f32) (b : Fin 4) (s : Fin 8192) (u : Fin 1) :
    rowDev x (ix3 b s u) = Ideal.sqrt (Cert.RowNorm.spread x b s) := by
  unfold rowDev
  show Ideal.sqrt (rowAvg (mulf (centred x) (centred x)) (ix3 b s u) + eps)
    = Ideal.sqrt (Ideal.div (∑ j : Fin 1024, Cert.RowNorm.cen x b s j * Cert.RowNorm.cen x b s j) len + eps)
  rw [rowAvg_apply]
  refine congrArg (fun z => Ideal.sqrt (Ideal.div z len + eps)) ?_
  exact Finset.sum_congr rfl fun j _ => by rw [mulf_apply, centred_apply]

/-- The reference's result at an entry. -/
theorem out_apply (x : FVec Ideal S4x8192x1024 .f32) (p : FVec Ideal S8192x1024 .f32) (b : Fin 4) (s : Fin 8192) (k : Fin 1024) :
    out x p (ix3 b s k) = Cert.RowNorm.outDiv x p b s k := by
  unfold out
  show _ = Ideal.div (Cert.RowNorm.cen x b s k) (Ideal.sqrt (Cert.RowNorm.spread x b s)) + p (ix2 s k)
  rw [addf_apply, hostDivf_apply, centred_apply]
  refine congrArg₂ (fun y z => Ideal.div (Cert.RowNorm.cen x b s k) y + z) ?_ ?_
  · refine (broadcastInDim_apply _ _ _ (ix3 b s k) (ix3 b s (0 : Fin 1)) (fun d => match d with | ⟨0, _⟩ => rfl | ⟨1, _⟩ => rfl | ⟨2, _⟩ => rfl)).trans ?_
    exact rowDev_apply x b s 0
  · refine (broadcastInDim_apply _ _ _ (ix3 b s k) (ix3 (0 : Fin 1) s k) (fun d => match d with | ⟨0, _⟩ => rfl | ⟨1, _⟩ => rfl | ⟨2, _⟩ => rfl)).trans ?_
    exact taken_apply p 0 s k

/-- The reference's result array is the normalisation's. -/
theorem out_eq_result (x : FVec Ideal S4x8192x1024 .f32) (p : FVec Ideal S8192x1024 .f32) :
    out x p = Cert.RowNorm.result x p := by
  funext i
  obtain ⟨b, s, k, rfl⟩ : ∃ (b : Fin 4) (s : Fin 8192) (k : Fin 1024), i = ix3 b s k := ⟨i 0, i 1, i 2, eq_ix3 i⟩
  rw [out_apply, Cert.RowNorm.result_apply]

open Idealize.ShloMosaic.TcCoe Idealize.SL.Sem Idealize.ShloMosaic.StableHlo in
/-- At the compiled mesh, at the exact values, from any memory with zero counters: every weakly fair execution of the
    reference's @main terminates with its result buffer at the normalisation of the two arguments' launch contents, and the
    arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v22)
            = Cert.RowNorm.result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
      ⟨(h c main_v22).trans ((out_eq _).trans (out_eq_result _ _)),
        (h c main_arg0).trans (arg0_eq _), (h c main_arg1).trans (arg1_eq _)⟩)
    (run_main (F := Ideal) m ρ)

end Cert.RefSide

end
-- ==== Proof.lean ====
/-
  A fused row normalisation with a learned positional row added, against its plain array-program reference.

  Both programs take x : [4, 8192, 1024] and a table p : [8192, 1024]. For each row (b, s) of x, with
      mean = (Σ_j x[b,s,j]) / 1024,   c_j = x[b,s,j] - mean,   y = (Σ_j c_j·c_j) / 1024 + ε   (ε ≈ 1e-5),
  the kernel stores  c_k · y^(-1/2) + p[s,k]  and the reference computes  c_k / √y + p[s,k], its positional rows
  fetched by an index vector 0, 1, …, 8191 (so row s is row s of p: the index is never negative, never past the end).
  The kernel walks the row axis in ten blocks of 832 rows; the last block overhangs the arrays by 128 rows.

  * The word-level program runs to the end and leaves x and p as they were: the body only loads from and stores
    into its staging buffers, from any contents, and the argument arrays are never written back to
    (Proof/KerFrameB.lean).
  * Over the extended reals each stored row depends on the same row of the loaded block alone, so the rows inside the
    array come out as block t of one whole-array function, whatever the overhanging rows held; the blocks cover the
    result (Proof/KerDatI.lean, over KerBodyI, KerPayI, KerGeoI, LibKeepRows).
  * The reference, read operation by operation, ends at the quotient spelling of that function (Proof/RefValue.lean,
    over RefRun, RefTerm, RefIndex).
  * The two spellings agree because y > 0 always — a product a·a is nonnegative for every extended real, hence so are
    the sum and its quotient by 1024, and ε is a positive real — and for y > 0 multiplying by y^(-1/2) is dividing by
    √y, at y = +∞ too (Proof/RowNorm.lean). No finiteness of the inputs is used.
  * The idealised kernel is the kernel's own text read over the extended reals: nothing was rewritten, so there is
    nothing to preserve.
-/
import proofs.«149477_g14345190768845_cont_week2b_405_12_alg».proof.Defs
import proofs.«149477_g14345190768845_cont_week2b_405_12_alg».proof.Proof.Gen.Kernel
import proofs.«149477_g14345190768845_cont_week2b_405_12_alg».proof.Proof.Gen.KernelIdeal
import proofs.«149477_g14345190768845_cont_week2b_405_12_alg».proof.Proof.Gen.ReferenceIdeal
import proofs.«149477_g14345190768845_cont_week2b_405_12_alg».proof.Proof.Gen.Pre_finite_inputs
import proofs.«149477_g14345190768845_cont_week2b_405_12_alg».proof.Proof.KerFrameB
import proofs.«149477_g14345190768845_cont_week2b_405_12_alg».proof.Proof.KerDatI
import proofs.«149477_g14345190768845_cont_week2b_405_12_alg».proof.Proof.RefValue
import Idealize.ShloMosaic.Adequacy
import Idealize.ShloMosaic.Init

noncomputable section

namespace Cert.Proof

open Idealize.ShloMosaic Idealize.SL.Sem

/-- The word-level kernel: it runs, and its arguments end unchanged. -/
theorem frame_kernel : Cert.frame_Kernel := fun m ρ _ => Cert.Kernel.AnyContents.frame (F := Bits) m ρ

/-- The idealised kernel: the same, read off its run to the whole result. -/
theorem frame_ideal : Cert.frame_KernelIdeal := fun m ρ _ =>
  (θ_run Cert.KernelIdeal.defs _ _).mono (fun _ h c => (h c).2) (Cert.KernelIdeal.Exact.run m ρ)

/-- The reference: the same, read off its run. -/
theorem frame_reference : Cert.frame_ReferenceIdeal := fun m ρ _ =>
  (θ_run Cert.ReferenceIdeal.defs _ _).mono (fun _ h c => (h c).2) (Cert.RefSide.run m ρ)

/-- Nothing was rewritten between the kernel and its idealisation. -/
theorem preserves : Cert.preserves_Kernel_KernelIdeal := trivial

/-- From memories that agree on the arguments, both programs end with the same result array: the kernel's whole
    result, which is the reference's normalisation of the same arguments. -/
theorem algebraic : Cert.algebraic_KernelIdeal_ReferenceIdeal := by
  intro m ρ m' ρ' _ hagree
  refine ⟨fun c => Cert.KernelIdeal.Exact.whole m c, Cert.KernelIdeal.Exact.run m ρ, ?_⟩
  refine (θ_run Cert.ReferenceIdeal.defs _ _).mono (fun _ h c => ⟨(h c).1.trans ?_, (h c).2⟩) (Cert.RefSide.run m' ρ')
  rw [(hagree c).1, (hagree c).2]
  exact (Cert.KernelIdeal.Exact.whole_eq_result m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
